-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S1024x256 : Shape := ⟨2, ![1024, 256]⟩
abbrev S1024 : Shape := ⟨1, ![1024]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x256 .f32) (main_arg5 : FVec F S1024 .f32) (main_arg6 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S65536x256 .f32) (main_arg1 : FVec F S65536x256 .f32) (main_arg2 : FVec F S65536x256 .f32) (main_arg3 : FVec F S1024x256 .f32) (main_arg4 : FVec F S1024x256 .f32) (main_arg5 : FVec F S1024 .f32) (main_arg6 : FVec F S1024 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_v13 main_v16
-- ==== Kernel.lean ====
abbrev S65536x256 : Shape := ⟨2, ![65536, 256]⟩
abbrev S1024x256 : Shape := ⟨2, ![1024, 256]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 13
  | .vmem => 13
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S1024x256, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1024x256, .bf16⟩
  | .hbm, ⟨8, _⟩ => ⟨S1024x256, .bf16⟩
  | .hbm, ⟨9, _⟩ => ⟨S1024, .f32⟩
  | .hbm, ⟨10, _⟩ => ⟨S1x1024, .f32⟩
  | .hbm, ⟨11, _⟩ => ⟨S65536x256, .f32⟩
  | .hbm, ⟨12, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S1x1024, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S1024_S1x1024 : S1024.ShapeCasts S1x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .bf16 = 32 ∨ (Rect.block (s := S1024x256) S1024x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S65536x256.size a
  hwx0_6 : ∀ i : grid0.Coords, EltTy.bits .f32 = 32 ∨ (Rect.block (s := S65536x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S1024x256 : Shape := ⟨2, ![1024, 256]⟩
abbrev S1024 : Shape := ⟨1, ![1024]⟩
abbrev S65536x1024 : Shape := ⟨2, ![65536, 1024]⟩
abbrev S1x1024 : Shape := ⟨2, ![1, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S1024x256, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S65536x1024, .f32⟩
  | .hbm, ⟨8, _⟩ => ⟨S1x1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S1x1024, .f32⟩
  | .hbm, ⟨14, _⟩ => ⟨S65536x1024, .f32⟩
  | .hbm, ⟨15, _⟩ => ⟨S65536x1024, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S65536x256, .f32⟩
  | .hbm, ⟨21, _⟩ => ⟨S65536x256, .f32⟩
  | .hbm, ⟨22, _⟩ => ⟨S_, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S65536x256, .f32⟩
  | .hbm, ⟨39, _⟩ => ⟨S_, .f32⟩
  | .hbm, ⟨40, _⟩ => ⟨S65536x256, .f32⟩
  | .hbm, ⟨41, _⟩ => ⟨S65536x256, .f32⟩
  | .hbm, ⟨42, _⟩ => ⟨S_, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S65536x256, .f32⟩
  | .hbm, ⟨47, _⟩ => ⟨S65536x256, .f32⟩
  | .hbm, ⟨48, _⟩ => ⟨S65536x256, .f32⟩
  | .hbm, ⟨49, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  dot_S65536x256_S1024x256_S65536x1024_1_1_0_0_n_n_wf : DotDims.WF S65536x256 S1024x256 S65536x1024 [1] [1] [0] [0] [] []

variable [Facts₀]

def dot_S65536x256_S1024x256_S65536x1024_1_1_0_0_n_n : DotDims S65536x256 S1024x256 S65536x1024 where
  lhsContracting := [1]
  rhsContracting := [1]
  lhsNonContracting := [0]
  rhsNonContracting := [0]
  lhsBatch := []
  rhsBatch := []
  wf := dot_S65536x256_S1024x256_S65536x1024_1_1_0_0_n_n_wf

class Facts : Prop extends Facts₀ where

variable [Facts]
-- ==== Proof.CellSpec.lean ====
/-
  One step of a long short-term memory cell, stated row by row over the extended reals.

  For one batch row, with `xr` the row of inputs, `hr` the row of hidden states and `cq` one entry of the cell
  state, the pre-activation of gate column `n` is

      pre n = (∑ k, xr k * wih n k) + (∑ k, hr k * whh n k) + b n

  with `wih`, `whh` the two weight tables (one row per gate column) and `b` the bias. The 1024 gate columns are
  four bands of 256: input gate (columns q), forget gate (256 + q), candidate (512 + q), output gate (768 + q).
  With σ the logistic function and tanh the hyperbolic tangent (both with their limits at the infinities), the new
  cell state and the new hidden state at column `q` are

      c' q = σ (pre (256 + q)) * cq + σ (pre q) * tanh (pre (512 + q))
      h' q = σ (pre (768 + q)) * tanh (c' q).

  An entry of either result depends only on its own batch row of `x` and `h`, its own entry of `c`, and the
  tables. The only algebra needed to set two spellings of `pre` side by side is that addition of extended reals is
  commutative and associative: a bias added in two halves, one after each product, is the sum of the halves added
  after both products. No finiteness is used anywhere.
-/
import Idealize.ShloMosaic.PureOps.Ideal
import Idealize.ShloMosaic.Lib.ValueIdx

noncomputable section

open scoped BigOperators

namespace Cert.CellSpec

open Idealize.ShloMosaic Idealize.ShloMosaic.ValueIdx

/-! ## One row -/

/-- The pre-activation of gate column `n`: the row of inputs against row `n` of the input weights, plus the row of
    hidden states against row `n` of the hidden weights, plus the bias at `n`. -/
def pre (xr hr : Fin 256 → EReal) (wih whh : Fin 1024 → Fin 256 → EReal) (b : Fin 1024 → EReal) (n : Fin 1024) : EReal :=
  ((∑ k : Fin 256, xr k * wih n k) + ∑ k : Fin 256, hr k * whh n k) + b n

/-- Column `q` of the input-gate band. -/
def colI (q : Fin 256) : Fin 1024 := ⟨q.val, by have := q.isLt; omega⟩
/-- Column `q` of the forget-gate band. -/
def colF (q : Fin 256) : Fin 1024 := ⟨q.val + 256, by have := q.isLt; omega⟩
/-- Column `q` of the candidate band. -/
def colG (q : Fin 256) : Fin 1024 := ⟨q.val + 512, by have := q.isLt; omega⟩
/-- Column `q` of the output-gate band. -/
def colO (q : Fin 256) : Fin 1024 := ⟨q.val + 768, by have := q.isLt; omega⟩

/-- The new cell state at column `q`: the forget gate times the old cell state plus the input gate times the
    candidate. -/
def cellC (xr hr : Fin 256 → EReal) (cq : EReal) (wih whh : Fin 1024 → Fin 256 → EReal) (b : Fin 1024 → EReal)
    (q : Fin 256) : EReal :=
  Ideal.logistic (pre xr hr wih whh b (colF q)) * cq
    + Ideal.logistic (pre xr hr wih whh b (colI q)) * Ideal.tanh (pre xr hr wih whh b (colG q))

/-- The new hidden state at column `q`: the output gate times the hyperbolic tangent of the new cell state. -/
def cellH (xr hr : Fin 256 → EReal) (cq : EReal) (wih whh : Fin 1024 → Fin 256 → EReal) (b : Fin 1024 → EReal)
    (q : Fin 256) : EReal :=
  Ideal.logistic (pre xr hr wih whh b (colO q)) * Ideal.tanh (cellC xr hr cq wih whh b q)

/-- A bias added in two halves, one after each of two terms, is the two terms added and then the two halves:
    commutativity and associativity of addition on the extended reals. -/
theorem add_halves (s₁ s₂ b₁ b₂ : EReal) : ((s₁ + b₁) + s₂) + b₂ = (s₁ + s₂) + (b₁ + b₂) := by
  rw [add_right_comm s₁ b₁ s₂, add_assoc]

/-! ## Whole arrays -/

/-- The shape of the batch arrays `x`, `h`, `c` and of both results. -/
abbrev SB : Shape := ⟨2, ![65536, 256]⟩
/-- The shape of a weight table. -/
abbrev SW : Shape := ⟨2, ![1024, 256]⟩
/-- The shape of a bias vector. -/
abbrev SV : Shape := ⟨1, ![1024]⟩

/-- Batch row `r` of an array. -/
def rowOf (X : SB.Idx → EReal) (r : Fin 65536) : Fin 256 → EReal := fun k => X (ix2 r k)
/-- A weight array as a table: one row per gate column. -/
def tableOf (W : SW.Idx → EReal) : Fin 1024 → Fin 256 → EReal := fun n k => W (ix2 n k)
/-- The bias: the two bias vectors added. -/
def biasOf (B₁ B₂ : SV.Idx → EReal) : Fin 1024 → EReal := fun n => B₁ (ix1 n) + B₂ (ix1 n)

/-- The new cell state, as one function of the seven argument arrays, entry by entry. -/
def cArr (X H C : SB.Idx → EReal) (Wih Whh : SW.Idx → EReal) (B₁ B₂ : SV.Idx → EReal) : SB.Idx → EReal := fun i =>
  cellC (rowOf X (i 0)) (rowOf H (i 0)) (C i) (tableOf Wih) (tableOf Whh) (biasOf B₁ B₂) (i 1)

/-- The new hidden state, as one function of the seven argument arrays, entry by entry. -/
def hArr (X H C : SB.Idx → EReal) (Wih Whh : SW.Idx → EReal) (B₁ B₂ : SV.Idx → EReal) : SB.Idx → EReal := fun i =>
  cellH (rowOf X (i 0)) (rowOf H (i 0)) (C i) (tableOf Wih) (tableOf Whh) (biasOf B₁ B₂) (i 1)

theorem cArr_ix2 (X H C : SB.Idx → EReal) (Wih Whh : SW.Idx → EReal) (B₁ B₂ : SV.Idx → EReal) (r : Fin 65536) (q : Fin 256) :
    cArr X H C Wih Whh B₁ B₂ (ix2 r q)
      = cellC (rowOf X r) (rowOf H r) (C (ix2 r q)) (tableOf Wih) (tableOf Whh) (biasOf B₁ B₂) q := rfl

theorem hArr_ix2 (X H C : SB.Idx → EReal) (Wih Whh : SW.Idx → EReal) (B₁ B₂ : SV.Idx → EReal) (r : Fin 65536) (q : Fin 256) :
    hArr X H C Wih Whh B₁ B₂ (ix2 r q)
      = cellH (rowOf X r) (rowOf H r) (C (ix2 r q)) (tableOf Wih) (tableOf Whh) (biasOf B₁ B₂) q := rfl

end Cert.CellSpec

end
-- ==== Proof.RefCell.lean ====
/-
  The reference computes the cell of `CellSpec`, entry by entry.

  The reference forms the gate pre-activations of all 65536 batch rows at once: the product of `x` with the input
  weights contracted along the 256 features, plus the first bias along every row, plus the product of `h` with the
  hidden weights, plus the second bias. At the entry (r, n) that is
  ((∑ k, x (r, k) * w_ih (n, k)) + b_ih n) + (∑ k, h (r, k) * w_hh (n, k)) + b_hh n, which is the row's
  pre-activation with the two bias halves gathered (`CellSpec.add_halves`).

  It spells the logistic function as 1 / (1 + exp (-y)) with the float literal 1.0; on the extended reals that
  quotient IS the logistic function, the infinities included, because the logistic function is defined as that
  expression there and the literal denotes the real number 1.

  The four bands of gate columns are column slices at offsets 0, 256, 512 and 768.
-/
import proofs.«142601_j26551487824698_2_alg».proof.Proof.Gen.ReferenceIdeal.Read
import proofs.«142601_j26551487824698_2_alg».proof.Proof.CellSpec

noncomputable section

open scoped BigOperators

namespace Cert.RefCell

open Cert.ReferenceIdeal Cert.ReferenceIdeal.Read Cert.CellSpec
open Idealize.ShloMosaic Idealize.ShloMosaic.ValueIdx

variable (x0 x1 x2 : (⟨S65536x256, .f32⟩ : BufTy).Contents (Elt Ideal))
  (x3 x4 : (⟨S1024x256, .f32⟩ : BufTy).Contents (Elt Ideal))
  (x5 x6 : (⟨S1024, .f32⟩ : BufTy).Contents (Elt Ideal))

/-- The float literal 1.0 denotes the real number one. -/
theorem one_bits : Ideal.ofBits .f32 0x3F800000#32 = 1 := by
  simp [Ideal.ofBits, Ideal.ieee, -EReal.coe_mul]; norm_num

/-- The quotient 1 / (1 + exp (-y)), as the host spells it, is the logistic function on every extended real. -/
theorem host_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
      = Ideal.logistic y := by
  simp only [Ideal.hostDivf_def, Ideal.addf_def, Ideal.hostUnary_exp_def, Ideal.hostNegf_def, Ideal.negf_def,
    Ideal.ofBits_def, one_bits, Ideal.logistic]

/-! ## The gate pre-activations -/

/-- The reference's gate array at batch row `r`, gate column `n`, is the row's pre-activation. -/
theorem gates_apply (r : Fin 65536) (n : Fin 1024) :
    val_main_v8 (F := Ideal) x0 x1 x3 x4 x5 x6 (ix2 r n)
      = pre (rowOf x0 r) (rowOf x1 r) (tableOf x3) (tableOf x4) (biasOf x5 x6) n := by
  have hl0 : ∀ k : Fin 256, lidx_main_v0 (ix2 r n) k = ix2 r k := fun k =>
    funext fun a => Fin.ext (by match a with | ⟨0, _⟩ => rfl | ⟨1, _⟩ => rfl)
  have hr0 : ∀ k : Fin 256, ridx_main_v0 (ix2 r n) k = ix2 n k := fun k =>
    funext fun a => Fin.ext (by match a with | ⟨0, _⟩ => rfl | ⟨1, _⟩ => rfl)
  have hl4 : ∀ k : Fin 256, lidx_main_v4 (ix2 r n) k = ix2 r k := fun k =>
    funext fun a => Fin.ext (by match a with | ⟨0, _⟩ => rfl | ⟨1, _⟩ => rfl)
  have hr4 : ∀ k : Fin 256, ridx_main_v4 (ix2 r n) k = ix2 n k := fun k =>
    funext fun a => Fin.ext (by match a with | ⟨0, _⟩ => rfl | ⟨1, _⟩ => rfl)
  have hb1 : idx_main_v1 (idx_main_v2 (ix2 r n)) = ix1 n :=
    funext fun a => Fin.ext (by match a with | ⟨0, _⟩ => rfl)
  have hb2 : idx_main_v6 (idx_main_v7 (ix2 r n)) = ix1 n :=
    funext fun a => Fin.ext (by match a with | ⟨0, _⟩ => rfl)
  rw [val_main_v8_apply, val_main_v5_apply, val_main_v3_apply, val_main_v0_apply, val_main_v4_apply,
    val_main_v2_apply, val_main_v1_apply, val_main_v7_apply, val_main_v6_apply, hb1, hb2]
  simp only [hl0, hr0, hl4, hr4, Ideal.addf_def]
  exact add_halves _ _ _ _

/-! ## The four bands -/

theorem bandI (r : Fin 65536) (q : Fin 256) : idx_main_v9 (ix2 r q) = ix2 r (colI q) :=
  funext fun a => Fin.ext (by match a with | ⟨0, _⟩ => rfl | ⟨1, _⟩ => rfl)
theorem bandF (r : Fin 65536) (q : Fin 256) : idx_main_v10 (ix2 r q) = ix2 r (colF q) :=
  funext fun a => Fin.ext (by match a with | ⟨0, _⟩ => rfl | ⟨1, _⟩ => exact Nat.add_comm 256 q.val)
theorem bandG (r : Fin 65536) (q : Fin 256) : idx_main_v11 (ix2 r q) = ix2 r (colG q) :=
  funext fun a => Fin.ext (by match a with | ⟨0, _⟩ => rfl | ⟨1, _⟩ => exact Nat.add_comm 512 q.val)
theorem bandO (r : Fin 65536) (q : Fin 256) : idx_main_v12 (ix2 r q) = ix2 r (colO q) :=
  funext fun a => Fin.ext (by match a with | ⟨0, _⟩ => rfl | ⟨1, _⟩ => exact Nat.add_comm 768 q.val)

/-- The input gate. -/
theorem gateI (r : Fin 65536) (q : Fin 256) :
    val_main_v18 (F := Ideal) x0 x1 x3 x4 x5 x6 (ix2 r q)
      = Ideal.logistic (pre (rowOf x0 r) (rowOf x1 r) (tableOf x3) (tableOf x4) (biasOf x5 x6) (colI q)) := by
  rw [val_main_v18_apply, val_main_v17_apply, val_main_cst_0_apply, val_main_v16_apply, val_main_v15_apply,
    val_main_cst_apply, val_main_v14_apply, val_main_v13_apply, val_main_v9_apply, bandI, gates_apply]
  exact host_logistic _

/-- The forget gate. -/
theorem gateF (r : Fin 65536) (q : Fin 256) :
    val_main_v24 (F := Ideal) x0 x1 x3 x4 x5 x6 (ix2 r q)
      = Ideal.logistic (pre (rowOf x0 r) (rowOf x1 r) (tableOf x3) (tableOf x4) (biasOf x5 x6) (colF q)) := by
  rw [val_main_v24_apply, val_main_v23_apply, val_main_cst_2_apply, val_main_v22_apply, val_main_v21_apply,
    val_main_cst_1_apply, val_main_v20_apply, val_main_v19_apply, val_main_v10_apply, bandF, gates_apply]
  exact host_logistic _

/-- The candidate. -/
theorem gateG (r : Fin 65536) (q : Fin 256) :
    val_main_v25 (F := Ideal) x0 x1 x3 x4 x5 x6 (ix2 r q)
      = Ideal.tanh (pre (rowOf x0 r) (rowOf x1 r) (tableOf x3) (tableOf x4) (biasOf x5 x6) (colG q)) := by
  rw [val_main_v25_apply, val_main_v11_apply, bandG, gates_apply]
  rfl

/-- The output gate. -/
theorem gateO (r : Fin 65536) (q : Fin 256) :
    val_main_v31 (F := Ideal) x0 x1 x3 x4 x5 x6 (ix2 r q)
      = Ideal.logistic (pre (rowOf x0 r) (rowOf x1 r) (tableOf x3) (tableOf x4) (biasOf x5 x6) (colO q)) := by
  rw [val_main_v31_apply, val_main_v30_apply, val_main_cst_4_apply, val_main_v29_apply, val_main_v28_apply,
    val_main_cst_3_apply, val_main_v27_apply, val_main_v26_apply, val_main_v12_apply, bandO, gates_apply]
  exact host_logistic _

/-! ## The two results -/

/-- The reference's new cell state is `CellSpec.cArr` of the arguments. -/
theorem ref_c : val_main_v34 (F := Ideal) x0 x1 x2 x3 x4 x5 x6 = cArr x0 x1 x2 x3 x4 x5 x6 := by
  funext i
  obtain ⟨r, q, rfl⟩ : ∃ (r : Fin 65536) (q : Fin 256), i = ix2 r q := ⟨i 0, i 1, eq_ix2 i⟩
  rw [cArr_ix2, val_main_v34_apply, val_main_v32_apply, val_main_v33_apply, gateF, gateI, gateG]
  rfl

/-- The reference's new hidden state is `CellSpec.hArr` of the arguments. -/
theorem ref_h : val_main_v36 (F := Ideal) x0 x1 x2 x3 x4 x5 x6 = hArr x0 x1 x2 x3 x4 x5 x6 := by
  funext i
  obtain ⟨r, q, rfl⟩ : ∃ (r : Fin 65536) (q : Fin 256), i = ix2 r q := ⟨i 0, i 1, eq_ix2 i⟩
  rw [hArr_ix2, val_main_v36_apply, val_main_v35_apply, gateO]
  have hc := congrFun (ref_c x0 x1 x2 x3 x4 x5 x6) (ix2 r q)
  rw [cArr_ix2] at hc
  rw [hc]
  rfl

end Cert.RefCell

end
-- ==== Proof.LibRowDot.lean ====
/-
  A matrix product whose right factor is contracted along its SECOND axis: `x · wᵀ` without a separate transposition.

  A matrix unit fed an `R × K` left factor and an `N × K` right factor, with dimension numbers that contract the
  second axis of both (`[1] × [1]`, nothing batched), accumulated into the zero matrix and read at exact arithmetic, is
  at the entry `(p, n)` the sum over the contracted coordinate `a : Fin K` of `l (p, a) * r (n, a)`; accumulated into any
  matrix `acc` it is `acc (p, n)` plus that sum. The four hypotheses say the dimension numbers are the ones described:
  each factor's index takes its row from the output index (the left factor from the output's row, the right factor
  from the output's column) and its column from the contraction index. Any extents, any float formats of the factors.
-/
import Idealize.ShloMosaic.PureOps.Ideal.Laws
import Idealize.ShloMosaic.Lib.ValueIdx

noncomputable section

open scoped BigOperators

namespace Cert.LibRowDot

open Idealize.ShloMosaic Idealize.ShloMosaic.ValueIdx

/-- `x · wᵀ` accumulated into `acc`, read at `(p, n)` in exact arithmetic: `acc (p, n) + ∑ a, l (p, a) * r (n, a)`. -/
theorem matmul_rows {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (acc : FVec Ideal ⟨2, ![R, N]⟩ .f32) (p : Fin R) (n : Fin N) :
    FloatOps.matmul D prec l r acc (ix2 p n) = acc (ix2 p n) + ∑ a : Fin K, l (ix2 p a) * r (ix2 n a) := by
  rw [Ideal.matmul_apply, ← Equiv.sum_comp (contrEquiv1 D K hr hs).symm]
  refine congrArg (acc (ix2 p n) + ·) (Finset.sum_congr rfl fun k _ => ?_)
  have hk := contrEquiv1_symm_val D K hr hs k
  have el : D.lhsIdx (ix2 p n) ((contrEquiv1 D K hr hs).symm k) = ix2 p k := funext fun a => Fin.ext (by
    match a with
    | ⟨0, _⟩ => exact hl0 _ _
    | ⟨1, _⟩ => exact (hl1 _ _).trans hk)
  have er : D.rhsIdx (ix2 p n) ((contrEquiv1 D K hr hs).symm k) = ix2 n k := funext fun a => Fin.ext (by
    match a with
    | ⟨0, _⟩ => exact hr0 _ _
    | ⟨1, _⟩ => exact (hr1 _ _).trans hk)
  rw [el, er]

/-- The same accumulated into the zero matrix: the sum alone. -/
theorem matmul_rows_zero {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (p : Fin R) (n : Fin N) :
    FloatOps.matmul D prec l r (constant ⟨2, ![R, N]⟩ .f32 0x00000000#32) (ix2 p n)
      = ∑ a : Fin K, l (ix2 p a) * r (ix2 n a) := by
  rw [matmul_rows D hr hs hl0 hl1 hr0 hr1 prec l r _ p n]
  show Ideal.ofBits .f32 0x00000000#32 + _ = _
  rw [Ideal.ofBits_zero_f32, zero_add]

end Cert.LibRowDot

end
-- ==== Proof.BlockCell.lean ====
/-
  What the kernel body leaves in its two output blocks, entry by entry, is the cell of `CellSpec` on the rows of
  the blocks it loaded.

  At one grid point the body holds a block of 1024 batch rows of `x`, of `h` and of `c`, both whole weight
  tables and the bias as a single row. Its gate block (1024 rows by 1024 gate columns) is the block of `x` times the
  transposed input weights on the matrix unit, accumulated into zero, plus the same for `h` and the hidden weights,
  plus the bias row repeated down the rows. A product on the matrix unit that contracts the second axis of both
  factors and accumulates into zero is, at the entry (p, n), the sum over the 256 features k of
  left (p, k) * right (n, k); narrowing a float to a shorter format is the identity on the extended reals. So the
  gate block at (p, n) is the pre-activation `CellSpec.pre` of row `p` of the blocks at gate column `n`.

  The four bands are column slices of the gate block at offsets 0, 256, 512, 768, and the two stored blocks are the
  new cell state and the new hidden state of `CellSpec`, row by row.
-/
import proofs.«142601_j26551487824698_2_alg».proof.Proof.Gen.KernelIdeal.Value
import proofs.«142601_j26551487824698_2_alg».proof.Proof.CellSpec
import proofs.«142601_j26551487824698_2_alg».proof.Proof.LibRowDot
import Idealize.ShloMosaic.Lib.ValueLayout
import Idealize.ShloMosaic.Lib.Pipeline.Value

noncomputable section

open scoped BigOperators

namespace Cert.BlockCell

open Cert.KernelIdeal Cert.KernelIdeal.Gen Cert.KernelIdeal.Value Cert.CellSpec
open Idealize.ShloMosaic Idealize.ShloMosaic.TcCoe Idealize.ShloMosaic.ValueIdx

/-! ## The matrix unit's dimension numbers: both factors contracted along their second axis -/

theorem lhs0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

variable (P0 P1 P5 : Vec Ideal S1024x256 .f32) (P2 P3 : Vec Ideal S1024x256 .bf16) (P4 : Vec Ideal S1x1024 .f32)

/-! ## The gate block -/

/-- The gate block at row `p`, gate column `n`: the pre-activation of row `p` of the loaded blocks. -/
theorem gates_apply (p n : Fin 1024) :
    k0_pay1 (F := Ideal) P0 P1 P2 P3 P4 (ix2 p n)
      = pre (fun k => P0 (ix2 p k)) (fun k => P1 (ix2 p k)) (fun n k => P2 (ix2 n k)) (fun n k => P3 (ix2 n k))
          (fun n => P4 (ix2 (0 : Fin 1) n)) n := by
  have eA : FloatOps.matmul (F := Ideal) (φ₁ := .bf16) (φ₂ := .bf16) dot_S1024x256_S1024x256_S1024x1024_1_1_0_0_n_n none (truncf (F := Ideal) .bf16 P0 bitsLt_bf16_f32)
      (shapeCast S1024x256 P2 shapeCasts_S1024x256_S1024x256) (constant (F := Ideal) S1024x1024 .f32 0x00000000#32) (ix2 p n)
      = ∑ k : Fin 256, P0 (ix2 p k) * P2 (ix2 n k) := by
    rw [shapeCast_self]
    exact LibRowDot.matmul_rows_zero (φ₁ := .bf16) (φ₂ := .bf16) dot_S1024x256_S1024x256_S1024x1024_1_1_0_0_n_n rfl rfl lhs0 lhs1 rhs0 rhs1 none (truncf (F := Ideal) .bf16 P0 bitsLt_bf16_f32) P2 p n
  have eB : FloatOps.matmul (F := Ideal) (φ₁ := .bf16) (φ₂ := .bf16) dot_S1024x256_S1024x256_S1024x1024_1_1_0_0_n_n none (truncf (F := Ideal) .bf16 P1 bitsLt_bf16_f32)
      (shapeCast S1024x256 P3 shapeCasts_S1024x256_S1024x256) (constant (F := Ideal) S1024x1024 .f32 0x00000000#32) (ix2 p n)
      = ∑ k : Fin 256, P1 (ix2 p k) * P3 (ix2 n k) := by
    rw [shapeCast_self]
    exact LibRowDot.matmul_rows_zero (φ₁ := .bf16) (φ₂ := .bf16) dot_S1024x256_S1024x256_S1024x1024_1_1_0_0_n_n rfl rfl lhs0 lhs1 rhs0 rhs1 none (truncf (F := Ideal) .bf16 P1 bitsLt_bf16_f32) P3 p n
  have eC : broadcastTo S1024x1024 (shapeCast S1x1024 P4 shapeCasts_S1x1024_S1x1024) broadcasts_S1x1024_S1024x1024 (ix2 p n)
      = P4 (ix2 (0 : Fin 1) n) := by
    rw [shapeCast_self]
    exact broadcastTo_1b_ab_apply P4 broadcasts_S1x1024_S1024x1024 p n
  unfold pre
  exact congrArg₂ (· + ·) (congrArg₂ (· + ·) eA eB) eC

/-! ## The four bands of the gate block, and the two stored blocks -/

theorem c_bandF (p : Fin 1024) (q : Fin 256) : ix7_0 (ix2 p q) = ix2 p (colF q) :=
  funext fun a => Fin.ext (by match a with | ⟨0, _⟩ => rfl | ⟨1, _⟩ => rfl)
theorem c_own (p : Fin 1024) (q : Fin 256) : ix7_1 (ix2 p q) = ix2 p q :=
  funext fun a => Fin.ext (by match a with | ⟨0, _⟩ => rfl | ⟨1, _⟩ => rfl)
theorem c_bandI (p : Fin 1024) (q : Fin 256) : ix7_2 (ix2 p q) = ix2 p (colI q) :=
  funext fun a => Fin.ext (by match a with | ⟨0, _⟩ => rfl | ⟨1, _⟩ => rfl)
theorem c_bandG (p : Fin 1024) (q : Fin 256) : ix7_3 (ix2 p q) = ix2 p (colG q) :=
  funext fun a => Fin.ext (by match a with | ⟨0, _⟩ => rfl | ⟨1, _⟩ => rfl)

theorem h_bandO (p : Fin 1024) (q : Fin 256) : ix6_0 (ix2 p q) = ix2 p (colO q) :=
  funext fun a => Fin.ext (by match a with | ⟨0, _⟩ => rfl | ⟨1, _⟩ => rfl)
theorem h_bandF (p : Fin 1024) (q : Fin 256) : ix6_1 (ix2 p q) = ix2 p (colF q) :=
  funext fun a => Fin.ext (by match a with | ⟨0, _⟩ => rfl | ⟨1, _⟩ => rfl)
theorem h_own (p : Fin 1024) (q : Fin 256) : ix6_2 (ix2 p q) = ix2 p q :=
  funext fun a => Fin.ext (by match a with | ⟨0, _⟩ => rfl | ⟨1, _⟩ => rfl)
theorem h_bandI (p : Fin 1024) (q : Fin 256) : ix6_3 (ix2 p q) = ix2 p (colI q) :=
  funext fun a => Fin.ext (by match a with | ⟨0, _⟩ => rfl | ⟨1, _⟩ => rfl)
theorem h_bandG (p : Fin 1024) (q : Fin 256) : ix6_4 (ix2 p q) = ix2 p (colG q) :=
  funext fun a => Fin.ext (by match a with | ⟨0, _⟩ => rfl | ⟨1, _⟩ => rfl)

/-- The block stored as the new cell state, at row `p`, column `q`. -/
theorem cblock_apply (p : Fin 1024) (q : Fin 256) :
    E7 (F := Ideal) P0 P1 P2 P3 P4 P5 (ix2 p q)
      = cellC (fun k => P0 (ix2 p k)) (fun k => P1 (ix2 p k)) (P5 (ix2 p q)) (fun n k => P2 (ix2 n k))
          (fun n k => P3 (ix2 n k)) (fun n => P4 (ix2 (0 : Fin 1) n)) q := by
  show FloatOps.addf (FloatOps.mulf (FloatOps.logistic (k0_pay1 P0 P1 P2 P3 P4 (ix7_0 (ix2 p q)))) (P5 (ix7_1 (ix2 p q))))
      (FloatOps.mulf (FloatOps.logistic (k0_pay1 P0 P1 P2 P3 P4 (ix7_2 (ix2 p q)))) (FloatOps.tanh (k0_pay1 P0 P1 P2 P3 P4 (ix7_3 (ix2 p q))))) = _
  rw [c_bandF, c_own, c_bandI, c_bandG, gates_apply, gates_apply, gates_apply]
  rfl

/-- The block stored as the new hidden state, at row `p`, column `q`. -/
theorem hblock_apply (p : Fin 1024) (q : Fin 256) :
    E6 (F := Ideal) P0 P1 P2 P3 P4 P5 (ix2 p q)
      = cellH (fun k => P0 (ix2 p k)) (fun k => P1 (ix2 p k)) (P5 (ix2 p q)) (fun n k => P2 (ix2 n k))
          (fun n k => P3 (ix2 n k)) (fun n => P4 (ix2 (0 : Fin 1) n)) q := by
  show FloatOps.mulf (FloatOps.logistic (k0_pay1 P0 P1 P2 P3 P4 (ix6_0 (ix2 p q))))
      (FloatOps.tanh (FloatOps.addf (FloatOps.mulf (FloatOps.logistic (k0_pay1 P0 P1 P2 P3 P4 (ix6_1 (ix2 p q)))) (P5 (ix6_2 (ix2 p q))))
        (FloatOps.mulf (FloatOps.logistic (k0_pay1 P0 P1 P2 P3 P4 (ix6_3 (ix2 p q)))) (FloatOps.tanh (k0_pay1 P0 P1 P2 P3 P4 (ix6_4 (ix2 p q))))))) = _
  rw [h_bandO, h_bandF, h_own, h_bandI, h_bandG, gates_apply, gates_apply, gates_apply, gates_apply]
  rfl

/-! ## A block against the whole arrays -/

/-- If row `p` of the loaded blocks is batch row `r` of the arrays `X`, `H`, `C`, the loaded tables are the
    arrays' and the loaded bias row is the sum of the two bias vectors, then the stored cell-state block at (p, q) is
    the whole-array cell state at (r, q). -/
theorem cblock_eq (X H C : SB.Idx → EReal) (Wih Whh : SW.Idx → EReal) (B₁ B₂ : SV.Idx → EReal)
    (p : Fin 1024) (q : Fin 256) (r : Fin 65536)
    (h0 : ∀ k : Fin 256, P0 (ix2 p k) = X (ix2 r k)) (h1 : ∀ k : Fin 256, P1 (ix2 p k) = H (ix2 r k))
    (h5 : P5 (ix2 p q) = C (ix2 r q))
    (h2 : ∀ (n : Fin 1024) (k : Fin 256), P2 (ix2 n k) = Wih (ix2 n k))
    (h3 : ∀ (n : Fin 1024) (k : Fin 256), P3 (ix2 n k) = Whh (ix2 n k))
    (h4 : ∀ n : Fin 1024, P4 (ix2 (0 : Fin 1) n) = B₁ (ix1 n) + B₂ (ix1 n)) :
    E7 (F := Ideal) P0 P1 P2 P3 P4 P5 (ix2 p q) = cArr X H C Wih Whh B₁ B₂ (ix2 r q) := by
  have e0 : (fun k : Fin 256 => P0 (ix2 p k)) = rowOf X r := funext h0
  have e1 : (fun k : Fin 256 => P1 (ix2 p k)) = rowOf H r := funext h1
  have e2 : (fun (n : Fin 1024) (k : Fin 256) => P2 (ix2 n k)) = tableOf Wih := funext fun n => funext fun k => h2 n k
  have e3 : (fun (n : Fin 1024) (k : Fin 256) => P3 (ix2 n k)) = tableOf Whh := funext fun n => funext fun k => h3 n k
  have e4 : (fun n : Fin 1024 => P4 (ix2 (0 : Fin 1) n)) = biasOf B₁ B₂ := funext h4
  rw [cblock_apply, cArr_ix2, e0, e1, e2, e3, e4, h5]

/-- The same for the stored hidden-state block. -/
theorem hblock_eq (X H C : SB.Idx → EReal) (Wih Whh : SW.Idx → EReal) (B₁ B₂ : SV.Idx → EReal)
    (p : Fin 1024) (q : Fin 256) (r : Fin 65536)
    (h0 : ∀ k : Fin 256, P0 (ix2 p k) = X (ix2 r k)) (h1 : ∀ k : Fin 256, P1 (ix2 p k) = H (ix2 r k))
    (h5 : P5 (ix2 p q) = C (ix2 r q))
    (h2 : ∀ (n : Fin 1024) (k : Fin 256), P2 (ix2 n k) = Wih (ix2 n k))
    (h3 : ∀ (n : Fin 1024) (k : Fin 256), P3 (ix2 n k) = Whh (ix2 n k))
    (h4 : ∀ n : Fin 1024, P4 (ix2 (0 : Fin 1) n) = B₁ (ix1 n) + B₂ (ix1 n)) :
    E6 (F := Ideal) P0 P1 P2 P3 P4 P5 (ix2 p q) = hArr X H C Wih Whh B₁ B₂ (ix2 r q) := by
  have e0 : (fun k : Fin 256 => P0 (ix2 p k)) = rowOf X r := funext h0
  have e1 : (fun k : Fin 256 => P1 (ix2 p k)) = rowOf H r := funext h1
  have e2 : (fun (n : Fin 1024) (k : Fin 256) => P2 (ix2 n k)) = tableOf Wih := funext fun n => funext fun k => h2 n k
  have e3 : (fun (n : Fin 1024) (k : Fin 256) => P3 (ix2 n k)) = tableOf Whh := funext fun n => funext fun k => h3 n k
  have e4 : (fun n : Fin 1024 => P4 (ix2 (0 : Fin 1) n)) = biasOf B₁ B₂ := funext h4
  rw [hblock_apply, hArr_ix2, e0, e1, e2, e3, e4, h5]

end Cert.BlockCell

end
-- ==== Proof.KernelArray.lean ====
/-
  The kernel's two result arrays after the run are the cell of `CellSpec` of the seven argument arrays.

  The grid has 64 points. At point `t` the blocks of `x`, `h`, `c` and of both results are batch rows
  1024 t … 1024 t + 1023 (all 256 columns); the weight tables and the bias row are staged whole at every point.
  Before the launch the host narrows the two weight arrays (the identity on the extended reals) and adds the two
  bias vectors, viewing the sum as one row of 1024.

  So row `p` of a block at point `t` is batch row 1024 t + p of its array, and by `BlockCell` what point `t` writes
  back is the block of rows 1024 t … of `CellSpec.cArr` (respectively `hArr`) of the arguments. The 64 blocks tile the
  result arrays: the batch row `r` lies in the block of point r / 1024. Hence each result array IS that function.
-/
import proofs.«142601_j26551487824698_2_alg».proof.Proof.Gen.KernelIdeal.Value
import proofs.«142601_j26551487824698_2_alg».proof.Proof.BlockCell
import Idealize.ShloMosaic.Lib.StableHlo.Run
import Idealize.ShloMosaic.Lib.ValueLayout
import Idealize.ShloMosaic.Lib.Pipeline.Value

noncomputable section

namespace Cert.KernelArray

open Cert.KernelIdeal Cert.KernelIdeal.Gen Cert.KernelIdeal.Value Cert.CellSpec
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits, decided over the 64 grid points -/

/-- The batch windows (0, 1, 2 in; 6, 7 out) are at block row `t`, block column 0; the weight and bias windows
    (3, 4, 5) at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 64 := lt_of_lt_of_eq t.isLt N_0

/-- Batch row `1024 t + p`. -/
def brow (t : Fin cfg0.N) (p : Fin 1024) : Fin 65536 :=
  ⟨t.val * 1024 + p.val, by have := point_lt t; have := p.isLt; omega⟩

/-! ## The arrays the region finds -/

/-- The staged input weights are the argument's: narrowing is the identity on the extended reals. -/
theorem V_wih (c : Dev nD) (j : S1024x256.Idx) :
    (V m c main_v0 : S1024x256.Idx → EReal) j = m ((c : Thread nD τ).loc main_arg3) j := by
  have e : (V m c main_v0 : S1024x256.Idx → EReal)
      = truncf (F := Ideal) .bf16 (m ((c : Thread nD τ).loc main_arg3)) bitsLt_bf16_f32 := by
    dsimp only [V, hostOps0]; after_results
  rw [e]; rfl

/-- The staged hidden weights are the argument's. -/
theorem V_whh (c : Dev nD) (j : S1024x256.Idx) :
    (V m c main_v1 : S1024x256.Idx → EReal) j = m ((c : Thread nD τ).loc main_arg4) j := by
  have e : (V m c main_v1 : S1024x256.Idx → EReal)
      = truncf (F := Ideal) .bf16 (m ((c : Thread nD τ).loc main_arg4)) bitsLt_bf16_f32 := by
    dsimp only [V, hostOps0]; after_results
  rw [e]; rfl

/-- The staged bias row at column `n` is the sum of the two bias vectors at `n`. -/
theorem V_bias (c : Dev nD) (n : Fin 1024) :
    (V m c main_v3 : S1x1024.Idx → EReal) (ix2 (0 : Fin 1) n)
      = biasOf (m ((c : Thread nD τ).loc main_arg5)) (m ((c : Thread nD τ).loc main_arg6)) n := by
  have e : (V m c main_v3 : S1x1024.Idx → EReal)
      = shapeCast S1x1024 (addf (F := Ideal) (φ := .f32) (m ((c : Thread nD τ).loc main_arg5)) (m ((c : Thread nD τ).loc main_arg6)))
          shapeCasts_S1024_S1x1024 := by
    dsimp only [V, hostOps0]; after_results; rfl
  rw [e]
  exact shapeCast_a_1a_apply _ shapeCasts_S1024_S1x1024 (0 : Fin 1) n

/-! ## A block's rows are the array's rows -/

/-- Row `p` of the block of `x` at point `t` is batch row `1024 t + p` of `x`. -/
theorem xblk_apply (c : Dev nD) (t : Fin cfg0.N) (p : Fin 1024) (k : Fin 256) :
    (iblk m c 0 t : Vec Ideal S1024x256 .f32) (ix2 p k)
      = (m ((c : Thread nD τ).loc main_arg0) : S65536x256.Idx → EReal) (ix2 (brow t p) k) := by
  obtain ⟨a0, a1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = t.val * 1024 + p.val; rw [a0]; omega
  | ⟨1, _⟩ => show win0_0.index t (1 : Fin 2) * 256 + 1 * k.val = k.val; rw [a1]; omega

/-- The same for the block of `h`. -/
theorem hblk_apply (c : Dev nD) (t : Fin cfg0.N) (p : Fin 1024) (k : Fin 256) :
    (iblk m c 1 t : Vec Ideal S1024x256 .f32) (ix2 p k)
      = (m ((c : Thread nD τ).loc main_arg1) : S65536x256.Idx → EReal) (ix2 (brow t p) k) := by
  obtain ⟨-, -, a0, a1, -⟩ := idx_facts t
  unfold iblk
  rw [View.read_apply]
  show V m c main_arg1 _ = _
  rw [V_main_arg1]
  congr 1
  funext a
  apply Fin.ext
  match a with
  | ⟨0, _⟩ => show win0_1.index t (0 : Fin 2) * 1024 + 1 * p.val = t.val * 1024 + p.val; rw [a0]; omega
  | ⟨1, _⟩ => show win0_1.index t (1 : Fin 2) * 256 + 1 * k.val = k.val; rw [a1]; omega

/-- The same for the block of `c`. -/
theorem cblk_apply (c : Dev nD) (t : Fin cfg0.N) (p : Fin 1024) (k : Fin 256) :
    (iblk m c 2 t : Vec Ideal S1024x256 .f32) (ix2 p k)
      = (m ((c : Thread nD τ).loc main_arg2) : S65536x256.Idx → EReal) (ix2 (brow t p) k) := by
  obtain ⟨-, -, -, -, a0, a1, -⟩ := idx_facts t
  unfold iblk
  rw [View.read_apply]
  show V m c main_arg2 _ = _
  rw [V_main_arg2]
  congr 1
  funext a
  apply Fin.ext
  match a with
  | ⟨0, _⟩ => show win0_2.index t (0 : Fin 2) * 1024 + 1 * p.val = t.val * 1024 + p.val; rw [a0]; omega
  | ⟨1, _⟩ => show win0_2.index t (1 : Fin 2) * 256 + 1 * k.val = k.val; rw [a1]; omega

/-- The staged input-weight block is the whole table. -/
theorem wihblk_apply (c : Dev nD) (t : Fin cfg0.N) (n : Fin 1024) (k : Fin 256) :
    (iblk m c 3 t : Vec Ideal S1024x256 .bf16) (ix2 n k)
      = (m ((c : Thread nD τ).loc main_arg3) : S1024x256.Idx → EReal) (ix2 n k) := by
  obtain ⟨-, -, -, -, -, -, a0, a1, -⟩ := idx_facts t
  unfold iblk
  rw [View.read_apply]
  show (V m c main_v0 : S1024x256.Idx → EReal) _ = _
  rw [V_wih]
  congr 1
  funext a
  apply Fin.ext
  match a with
  | ⟨0, _⟩ => show win0_3.index t (0 : Fin 2) * 1024 + 1 * n.val = n.val; rw [a0]; omega
  | ⟨1, _⟩ => show win0_3.index t (1 : Fin 2) * 256 + 1 * k.val = k.val; rw [a1]; omega

/-- The staged hidden-weight block is the whole table. -/
theorem whhblk_apply (c : Dev nD) (t : Fin cfg0.N) (n : Fin 1024) (k : Fin 256) :
    (iblk m c 4 t : Vec Ideal S1024x256 .bf16) (ix2 n k)
      = (m ((c : Thread nD τ).loc main_arg4) : S1024x256.Idx → EReal) (ix2 n k) := by
  obtain ⟨-, -, -, -, -, -, -, -, a0, a1, -⟩ := idx_facts t
  unfold iblk
  rw [View.read_apply]
  show (V m c main_v1 : S1024x256.Idx → EReal) _ = _
  rw [V_whh]
  congr 1
  funext a
  apply Fin.ext
  match a with
  | ⟨0, _⟩ => show win0_4.index t (0 : Fin 2) * 1024 + 1 * n.val = n.val; rw [a0]; omega
  | ⟨1, _⟩ => show win0_4.index t (1 : Fin 2) * 256 + 1 * k.val = k.val; rw [a1]; omega

/-- The staged bias row is the sum of the two bias vectors. -/
theorem biasblk_apply (c : Dev nD) (t : Fin cfg0.N) (n : Fin 1024) :
    (iblk m c 5 t : Vec Ideal S1x1024 .f32) (ix2 (0 : Fin 1) n)
      = biasOf (m ((c : Thread nD τ).loc main_arg5)) (m ((c : Thread nD τ).loc main_arg6)) n := by
  obtain ⟨-, -, -, -, -, -, -, -, -, -, a0, a1, -⟩ := idx_facts t
  unfold iblk
  rw [View.read_apply]
  show (V m c main_v3 : S1x1024.Idx → EReal) _ = _
  rw [← V_bias]
  congr 1
  funext a
  apply Fin.ext
  match a with
  | ⟨0, _⟩ => show win0_5.index t (0 : Fin 2) * 1 + 1 * 0 = 0; rw [a0]
  | ⟨1, _⟩ => show win0_5.index t (1 : Fin 2) * 1024 + 1 * n.val = n.val; rw [a1]; omega

/-! ## What each point writes back -/

/-- The whole-array cell state of the arguments. -/
abbrev cOf (c : Dev nD) : S65536x256.Idx → EReal :=
  cArr (m ((c : Thread nD τ).loc main_arg0)) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))

/-- The whole-array hidden state of the arguments. -/
abbrev hOf (c : Dev nD) : S65536x256.Idx → EReal :=
  hArr (m ((c : Thread nD τ).loc main_arg0)) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))

/-- An entry (p, q) of the cell-state result's block at point `t` is the array entry (1024 t + p, q). -/
theorem emb7 (t : Fin cfg0.N) (p : Fin 1024) (q : Fin 256) :
    ((cfg0.win 7).blk t).view.emb (ix2 p q) = ix2 (brow t p) q := by
  obtain ⟨-, -, -, -, -, -, -, -, -, -, -, -, -, -, a0, a1⟩ := idx_facts t
  funext a
  apply Fin.ext
  match a with
  | ⟨0, _⟩ => show win0_7.index t (0 : Fin 2) * 1024 + 1 * p.val = t.val * 1024 + p.val; rw [a0]; omega
  | ⟨1, _⟩ => show win0_7.index t (1 : Fin 2) * 256 + 1 * q.val = q.val; rw [a1]; omega

/-- The same for the hidden-state result's block. -/
theorem emb6 (t : Fin cfg0.N) (p : Fin 1024) (q : Fin 256) :
    ((cfg0.win 6).blk t).view.emb (ix2 p q) = ix2 (brow t p) q := by
  obtain ⟨-, -, -, -, -, -, -, -, -, -, -, -, a0, a1, -⟩ := idx_facts t
  funext a
  apply Fin.ext
  match a with
  | ⟨0, _⟩ => show win0_6.index t (0 : Fin 2) * 1024 + 1 * p.val = t.val * 1024 + p.val; rw [a0]; omega
  | ⟨1, _⟩ => show win0_6.index t (1 : Fin 2) * 256 + 1 * q.val = q.val; rw [a1]; omega

/-- Point `t` writes back, as the cell state, block `t` of the whole-array cell state. -/
theorem flushed7_eq (c : Dev nD) (t : Fin cfg0.N) :
    (dats m 0 c).flushed 7 t = ((cfg0.win 7).blk t).view.read (Elt Ideal) (cOf m c) := by
  rw [Value.flushed7]
  unfold out0_7
  simp only [View.ld_unit_zero (S := S1024x256) hz, View.ld_unit_zero (S := S1x1024) hz]
  funext j
  show _ = cOf m c (((cfg0.win 7).blk t).view.emb j)
  refine (canon7_eq (iblk m c 0 t) (iblk m c 1 t) (iblk m c 3 t) (iblk m c 4 t) (iblk m c 5 t) (iblk m c 2 t) j).trans ?_
  obtain ⟨p, q, rfl⟩ : ∃ (p : Fin 1024) (q : Fin 256), j = ix2 p q := ⟨j 0, j 1, eq_ix2 j⟩
  rw [emb7]
  exact BlockCell.cblock_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6)) p q (brow t p)
    (fun k => xblk_apply m c t p k) (fun k => hblk_apply m c t p k) (cblk_apply m c t p q)
    (fun n k => wihblk_apply m c t n k) (fun n k => whhblk_apply m c t n k) (fun n => biasblk_apply m c t n)

/-- Point `t` writes back, as the hidden state, block `t` of the whole-array hidden state. -/
theorem flushed6_eq (c : Dev nD) (t : Fin cfg0.N) :
    (dats m 0 c).flushed 6 t = ((cfg0.win 6).blk t).view.read (Elt Ideal) (hOf m c) := by
  rw [Value.flushed6]
  unfold out0_6
  simp only [View.ld_unit_zero (S := S1024x256) hz, View.ld_unit_zero (S := S1x1024) hz]
  funext j
  show _ = hOf m c (((cfg0.win 6).blk t).view.emb j)
  refine (canon6_eq (iblk m c 0 t) (iblk m c 1 t) (iblk m c 3 t) (iblk m c 4 t) (iblk m c 5 t) (iblk m c 2 t) j).trans ?_
  obtain ⟨p, q, rfl⟩ : ∃ (p : Fin 1024) (q : Fin 256), j = ix2 p q := ⟨j 0, j 1, eq_ix2 j⟩
  rw [emb6]
  exact BlockCell.hblock_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6)) p q (brow t p)
    (fun k => xblk_apply m c t p k) (fun k => hblk_apply m c t p k) (cblk_apply m c t p q)
    (fun n k => wihblk_apply m c t n k) (fun n k => whhblk_apply m c t n k) (fun n => biasblk_apply m c t n)

/-! ## The blocks tile the result arrays -/

/-- An index is in the cell-state window's block at `t` iff each coordinate is in the block's range. -/
theorem mem_blk7 (t : Fin cfg0.N) (i : S65536x256.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v4_1).slice (win0_7.rect t)).set ↔ _
  rw [View.set_slice_whole, Rect.mem_set_unit]
  exact Iff.rfl

/-- The same for the hidden-state window. -/
theorem mem_blk6 (t : Fin cfg0.N) (i : S65536x256.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_v4_0).slice (win0_6.rect t)).set ↔ _
  rw [View.set_slice_whole, Rect.mem_set_unit]
  exact Iff.rfl

/-- Batch row `r` is in the block of point `r / 1024`. -/
theorem cover7 (i : S65536x256.Idx) :
    ∃ t : Fin cfg0.N, (cfg0.win 7).flush t = true ∧ i ∈ ((cfg0.win 7).blk t).view.set := by
  have hi0 : (i 0).val < 65536 := (i 0).isLt
  have hi1 : (i 1).val < 256 := (i 1).isLt
  obtain ⟨t, ht⟩ : ∃ t : Fin cfg0.N, t.val = (i 0).val / 1024 :=
    ⟨⟨(i 0).val / 1024, by show _ < grid0.N; rw [N_0]; omega⟩, rfl⟩
  obtain ⟨-, -, -, -, -, -, -, -, -, -, -, -, -, -, a0, a1⟩ := idx_facts t
  refine ⟨t, flush0_7 t, ?_⟩
  rw [mem_blk7]
  intro a
  match a with
  | ⟨0, _⟩ =>
    show win0_7.index t (0 : Fin 2) * 1024 ≤ (i 0).val ∧ (i 0).val < win0_7.index t (0 : Fin 2) * 1024 + 1024
    rw [a0, ht]; omega
  | ⟨1, _⟩ =>
    show win0_7.index t (1 : Fin 2) * 256 ≤ (i 1).val ∧ (i 1).val < win0_7.index t (1 : Fin 2) * 256 + 256
    rw [a1]; omega

theorem cover6 (i : S65536x256.Idx) :
    ∃ t : Fin cfg0.N, (cfg0.win 6).flush t = true ∧ i ∈ ((cfg0.win 6).blk t).view.set := by
  have hi0 : (i 0).val < 65536 := (i 0).isLt
  have hi1 : (i 1).val < 256 := (i 1).isLt
  obtain ⟨t, ht⟩ : ∃ t : Fin cfg0.N, t.val = (i 0).val / 1024 :=
    ⟨⟨(i 0).val / 1024, by show _ < grid0.N; rw [N_0]; omega⟩, rfl⟩
  obtain ⟨-, -, -, -, -, -, -, -, -, -, -, -, a0, a1, -⟩ := idx_facts t
  refine ⟨t, flush0_6 t, ?_⟩
  rw [mem_blk6]
  intro a
  match a with
  | ⟨0, _⟩ =>
    show win0_6.index t (0 : Fin 2) * 1024 ≤ (i 0).val ∧ (i 0).val < win0_6.index t (0 : Fin 2) * 1024 + 1024
    rw [a0, ht]; omega
  | ⟨1, _⟩ =>
    show win0_6.index t (1 : Fin 2) * 256 ≤ (i 1).val ∧ (i 1).val < win0_6.index t (1 : Fin 2) * 256 + 256
    rw [a1]; omega

/-! ## The arrays after the run, and the run -/

/-- The cell-state result array ends as the whole-array cell state of the arguments. -/
theorem final7 (c : Dev nD) : (dats m 0 c).arrAt 7 cfg0.N = cOf m c :=
  (dats m 0 c).arrAt_eq_of_cover 7 (cOf m c) (fun t _ => flushed7_eq m c t) cover7

/-- The hidden-state result array ends as the whole-array hidden state of the arguments. -/
theorem final6 (c : Dev nD) : (dats m 0 c).arrAt 6 cfg0.N = hOf m c :=
  (dats m 0 c).arrAt_eq_of_cover 6 (hOf m c) (fun t _ => flushed6_eq m c t) cover6

/-- Every weakly fair execution of the kernel program ends with the two results at the cell of the arguments and the
    arguments unchanged. -/
theorem run : θ_run defs (onTc (τ := τ) (main (F := Ideal))) ⟨m, fun _ => 0, ρ⟩ fun r => ∀ c : Dev nD,
      r.2.mem ((c : Thread nD τ).loc main_v4_0) = hOf m c
      ∧ r.2.mem ((c : Thread nD τ).loc main_v4_1) = cOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Value.run_blocks m ρ)

end Cert.KernelArray

end
-- ==== Proof.lean ====
/-
  The kernel and its reference compute one step of a long short-term memory cell over a batch of 65536 rows:
  from inputs x, hidden states h, cell states c (each 65536 by 256), weights w_ih, w_hh (each 1024 by 256) and
  biases b_ih, b_hh (each 1024),

      gates = x · w_ihᵀ + h · w_hhᵀ + (b_ih + b_hh)            (65536 by 1024, four bands of 256 columns: i, f, g, o)
      c'    = σ(f) * c + σ(i) * tanh(g)
      h'    = σ(o) * tanh(c')

  and return (h', c'). Read on the extended reals with exact operations the two programs differ in three ways, none
  of which changes a value:
    * the kernel narrows x, h and the weights to a shorter float format before the products; on the extended reals a
      change of format is the identity;
    * the kernel adds the two biases first and the products next, the reference adds each bias right after one
      product; addition of extended reals is commutative and associative (`CellSpec.add_halves`);
    * the kernel applies the logistic function as one operation, the reference writes 1 / (1 + exp (-y)); on the
      extended reals the logistic function is that quotient, limits at the infinities included
      (`RefCell.host_logistic`).
  The kernel works on 64 blocks of 1024 batch rows; a row of the result depends only on the same row of x, h, c, so
  the blocks of the result are the rows of one whole-array function (`KernelArray.final6`, `final7`), which is
  the function the reference computes (`RefCell.ref_h`, `ref_c`). Finiteness of the inputs is never used.

  The ideal pass rewrote nothing in the kernel, so the idealization claim is the trivial one.
-/
import proofs.«142601_j26551487824698_2_alg».proof.Defs
import proofs.«142601_j26551487824698_2_alg».proof.Proof.Gen.Kernel
import proofs.«142601_j26551487824698_2_alg».proof.Proof.Gen.Kernel.Skeleton
import proofs.«142601_j26551487824698_2_alg».proof.Proof.Gen.Kernel.Launch
import proofs.«142601_j26551487824698_2_alg».proof.Proof.Gen.Kernel.Points
import proofs.«142601_j26551487824698_2_alg».proof.Proof.Gen.Kernel.Frame
import proofs.«142601_j26551487824698_2_alg».proof.Proof.Gen.KernelIdeal
import proofs.«142601_j26551487824698_2_alg».proof.Proof.Gen.KernelIdeal.Skeleton
import proofs.«142601_j26551487824698_2_alg».proof.Proof.Gen.KernelIdeal.Launch
import proofs.«142601_j26551487824698_2_alg».proof.Proof.Gen.KernelIdeal.Points
import proofs.«142601_j26551487824698_2_alg».proof.Proof.Gen.KernelIdeal.Frame
import proofs.«142601_j26551487824698_2_alg».proof.Proof.Gen.ReferenceIdeal
import proofs.«142601_j26551487824698_2_alg».proof.Proof.Gen.Pre_finite_inputs
import proofs.«142601_j26551487824698_2_alg».proof.Proof.Gen.KernelIdeal.Value
import proofs.«142601_j26551487824698_2_alg».proof.Proof.Gen.ReferenceIdeal.Run
import proofs.«142601_j26551487824698_2_alg».proof.Proof.Gen.ReferenceIdeal.Read
import proofs.«142601_j26551487824698_2_alg».proof.Proof.RefCell
import proofs.«142601_j26551487824698_2_alg».proof.Proof.KernelArray
import Idealize.ShloMosaic.Adequacy
import Idealize.ShloMosaic.Init

noncomputable section

namespace Cert.Proof

open Idealize.ShloMosaic Idealize.ShloMosaic.TcCoe Idealize.SL.Sem

/-- The kernel program as printed runs, faults nowhere and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- So does the reference: its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The two programs, from memories that agree on the seven arguments, both end with the new hidden state and the
    new cell state of the arguments (`CellSpec.hArr`, `CellSpec.cArr`) in their two results. -/
theorem algebraic : Cert.algebraic_KernelIdeal_ReferenceIdeal := by
  intro m ρ m' ρ' _ hagree
  refine ⟨fun c => Cert.KernelArray.hOf m c, fun c => Cert.KernelArray.cOf m c, Cert.KernelArray.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6⟩ := hagree c
    rw [Cert.ReferenceIdeal.Read.val_main_v36_eq, Cert.RefCell.ref_h, e0, e1, e2, e3, e4, e5, e6]
  · obtain ⟨e0, e1, e2, e3, e4, e5, e6⟩ := hagree c
    rw [Cert.ReferenceIdeal.Read.val_main_v34_eq, Cert.RefCell.ref_c, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
